-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x100000x128 : Shape := ⟨3, ![4, 100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x100000x128 : S_.BroadcastsInDim S4x100000x128 (![] : Fin 0 → Fin S4x100000x128.rank)
  reducesTo_S4x100000x128_S_d0_1_2 : S4x100000x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S4x100000x128 .f32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x100000x128 .f32 := Host.absf main_arg1
  let main_cst_0 : FVec F S_ .f32 := constant S_ .f32 0x7F800000#32
  let main_v5 : FVec F S4x100000x128 .f32 := broadcastInDim S4x100000x128 ![] bcast_S_S4x100000x128 main_cst_0
  let main_v6 : IVec S4x100000x128 1 := cmpf .olt main_v4 main_v5
  let main_c_1 : IVec S_ 1 := constantI S_ 1 1#1
  let main_v7 : IVec S_ 1 := (fun x v => Host.reduce IntOp.andi x v reducesTo_S4x100000x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S4x100000x128 : Shape := ⟨3, ![4, 100000, 128]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩
abbrev S4x1000x128 : Shape := ⟨3, ![4, 1000, 128]⟩
abbrev S1x1000x128 : Shape := ⟨3, ![1, 1000, 128]⟩
abbrev S400000x128 : Shape := ⟨2, ![400000, 128]⟩

abbrev nBuf : Space → Nat
  | .hbm => 7
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S4x100000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4x100000x128, .f32⟩
  | .hbm, ⟨6, _⟩ => ⟨S400000x128, .f32⟩
  | .local _ .vmem, ⟨0, _⟩ => ⟨S1000x128, .f32⟩
  | .local _ .vmem, ⟨1, _⟩ => ⟨S1000x128, .f32⟩
  | .local _ .vmem, ⟨2, _⟩ => ⟨S4x1000x128, .f32⟩
  | .local _ .vmem, ⟨3, _⟩ => ⟨S4x1000x128, .f32⟩
  | .local _ .vmem, ⟨4, _⟩ => ⟨S128x128, .f32⟩
  | .local _ .vmem, ⟨5, _⟩ => ⟨S1x128, .f32⟩
  | .local _ .vmem, ⟨6, _⟩ => ⟨S4x1000x128, .f32⟩
  | .local _ .vmem, ⟨7, _⟩ => ⟨S4x1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S1000x128_S1000x128_0_0 : ∀ a, (![0, 0] : Fin 2 → Nat) a + S1000x128.size a ≤ S1000x128.size a
  h_S1000x128 : 0 < S1000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  broadcasts_S1x128_S1000x128 : S1x128.Broadcasts S1000x128
  shapeCasts_S1000x128_S1x1000x128 : S1000x128.ShapeCasts S1x1000x128
  inb_S4x1000x128_S1x1000x128_1_0_0 : ∀ a, (![1, 0, 0] : Fin 3 → Nat) a + S1x1000x128.size a ≤ S4x1000x128.size a
  inb_S4x1000x128_S1x1000x128_2_0_0 : ∀ a, (![2, 0, 0] : Fin 3 → Nat) a + S1x1000x128.size a ≤ S4x1000x128.size a
  inb_S4x1000x128_S1x1000x128_3_0_0 : ∀ a, (![3, 0, 0] : Fin 3 → Nat) a + S1x1000x128.size a ≤ S4x1000x128.size a
  shapeCasts_S4x100000x128_S400000x128 : S4x100000x128.ShapeCasts S400000x128
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x128.size a ≤ S4x100000x128.size a
  hwx0_1 : ∀ i : grid0.Coords, EltTy.bits .f32 = 32 ∨ (Rect.block (s := S4x100000x128) S4x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1000x128.size a ≤ S4x100000x128.size a
  hwx0_4 : ∀ i : grid0.Coords, EltTy.bits .f32 = 32 ∨ (Rect.block (s := S4x100000x128) S4x1000x128.size (cc0_transform_4 i) (hinb0_4 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S4x100000x128 : Shape := ⟨3, ![4, 100000, 128]⟩
abbrev S128x128 : Shape := ⟨2, ![128, 128]⟩
abbrev S128 : Shape := ⟨1, ![128]⟩
abbrev S1x100000x128 : Shape := ⟨3, ![1, 100000, 128]⟩
abbrev S1x128 : Shape := ⟨2, ![1, 128]⟩
abbrev S_ : Shape := ⟨0, ![]⟩
abbrev S400000x128 : Shape := ⟨2, ![400000, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4x100000x128, .f32⟩
  | .hbm, ⟨2, _⟩ => ⟨S128x128, .f32⟩
  | .hbm, ⟨3, _⟩ => ⟨S128, .f32⟩
  | .hbm, ⟨4, _⟩ => ⟨S1x100000x128, .f32⟩
  | .hbm, ⟨5, _⟩ => ⟨S100000x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S1x100000x128, .f32⟩
  | .hbm, ⟨15, _⟩ => ⟨S100000x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S1x100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S1x100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S400000x128, .f32⟩
  | .hbm, ⟨45, _⟩ => ⟨S_, .f32⟩
  | .hbm, ⟨46, _⟩ => ⟨S400000x128, .f32⟩
  | .hbm, ⟨47, _⟩ => ⟨S400000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_call0_cst : Ref sig .tc := ⟨.hbm, 45, rfl⟩
abbrev main_call0_v0 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  slices_S4x100000x128_S1x100000x128_0_0_0 : S4x100000x128.Slices ![0, 0, 0] S1x100000x128
  shapeCasts_S1x100000x128_S100000x128 : S1x100000x128.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x100000x128_S1x100000x128_1_0_0 : S4x100000x128.Slices ![1, 0, 0] S1x100000x128
  slices_S4x100000x128_S1x100000x128_2_0_0 : S4x100000x128.Slices ![2, 0, 0] S1x100000x128
  slices_S4x100000x128_S1x100000x128_3_0_0 : S4x100000x128.Slices ![3, 0, 0] S1x100000x128
  concatenates_S100000x128_S100000x128_S100000x128_S100000x128_S400000x128_d0 : Shape.Concatenates [S100000x128, S100000x128, S100000x128, S100000x128] S400000x128 0
  bcast_S_S400000x128 : S_.BroadcastsInDim S400000x128 (![] : Fin 0 → Fin S400000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  One group's store of the kernel body, read at an index.

  At each grid point the body holds a block of 1000 nodes: the node features `nfb : [1000, 128]`, the messages of
  the four groups `[4, 1000, 128]`, the whole projection `w : [128, 128]` and the bias as a row `b : [1, 128]`.
  For each group it takes that group's messages `x : [1, 1000, 128]`, drops the unit axis, multiplies by `w` into a
  zero accumulator, adds the bias row broadcast down the rows, adds the node features, halves, rectifies, and puts the
  unit axis back. The four stores are this one function of `(w, nfb, b, x)`.

  Read at row `p`, column `q` of the stored `[1, 1000, 128]` value, on the extended reals:

      max (1/2 · ((∑ₖ x[0, p, k] · w[k, q] + b[0, q]) + nfb[p, q])) 0.

  The matrix product into the zero accumulator is `0 + ∑ₖ …`, and `0 + s = s` for every extended real `s`; the
  contraction index, a one-axis multi-index, is re-indexed by its coordinate `k : Fin 128`. Everything else is a
  change of layout (the unit axis dropped and restored, the bias row repeated) or pointwise.
-/
import proofs.«149863_g28913719837267_retrytranche2_651_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Aggregate

open Cert.KernelIdeal Cert.KernelIdeal.Gen Idealize.ShloMosaic Idealize.ShloMosaic.ValueIdx

/-! ## The layout steps, over any element type -/

section Layout

variable {α : Type}

/-- A `[1000, 128]` value given a leading unit axis: entry `(0, p, q)` is entry `(p, q)`. -/
theorem rows_as_block_apply (v : S1000x128.Idx → α) (h : S1000x128.ShapeCasts S1x1000x128) (p : Fin 1000) (q : Fin 128) :
    shapeCast S1x1000x128 v h (ix3 (0 : Fin 1) p q) = v (ix2 p q) :=
  shapeCast_apply v h _ (ix2 p q) (by
    rw [Shape.rowMajor_val_two, Shape.rowMajor_val_three]
    show p.val * 128 + q.val = ((0 : Nat) * 1000 + p.val) * 128 + q.val
    omega)

/-- A `[1, 1000, 128]` block with its unit axis dropped: entry `(p, k)` is entry `(0, p, k)`. -/
theorem block_as_rows_apply (x : S1x1000x128.Idx → α) (h : S1x1000x128.ShapeCasts S1000x128) (p : Fin 1000) (k : Fin 128) :
    shapeCast S1000x128 x h (ix2 p k) = x (ix3 (0 : Fin 1) p k) :=
  shapeCast_apply x h _ (ix3 (0 : Fin 1) p k) (by
    rw [Shape.rowMajor_val_two, Shape.rowMajor_val_three]
    show ((0 : Nat) * 1000 + p.val) * 128 + k.val = p.val * 128 + k.val
    omega)

/-- The bias row repeated down 1000 rows: entry `(p, q)` is entry `(0, q)` of the row. -/
theorem bias_rows_apply (b : S1x128.Idx → α) (h : S1x128.Broadcasts S1000x128) (p : Fin 1000) (q : Fin 128) :
    broadcastTo S1000x128 b h (ix2 p q) = b (ix2 (0 : Fin 1) q) :=
  broadcastTo_apply b h _ (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

end Layout

/-! ## The projection: a matrix product into the zero accumulator is the plain sum of products -/

theorem lhs_row (i : S1000x128.Idx) (c : dot_S1000x128_S128x128_S1000x128_1_0_0_1_n_n.contr.Idx) :
    (dot_S1000x128_S128x128_S1000x128_1_0_0_1_n_n.lhsIdx i c 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

theorem rhs_col (i : S1000x128.Idx) (c : dot_S1000x128_S128x128_S1000x128_1_0_0_1_n_n.contr.Idx) :
    (dot_S1000x128_S128x128_S1000x128_1_0_0_1_n_n.rhsIdx i c 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- Row `p`, column `q` of `l · r` accumulated from zero is `∑ₖ l[p, k] · r[k, q]`. -/
theorem project_apply (l : FVec Ideal S1000x128 .f32) (r : FVec Ideal S128x128 .f32) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  simp only [matmul]
  rw [Ideal.matmul_constant_zero_apply,
    ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k :=
    funext fun a => Fin.ext (by
      match a with
      | ⟨0, _⟩ => exact lhs_row _ _
      | ⟨1, _⟩ => exact (dot_S1000x128_S128x128_S1000x128_1_0_0_1_n_n.lhsIdx_val_of_single rfl _ _).trans hk)
  have er : dot_S1000x128_S128x128_S1000x128_1_0_0_1_n_n.rhsIdx (ix2 p q) ((contrEquiv1 dot_S1000x128_S128x128_S1000x128_1_0_0_1_n_n 128 rfl rfl).symm k) = ix2 k q :=
    funext fun a => Fin.ext (by
      match a with
      | ⟨0, _⟩ => exact (dot_S1000x128_S128x128_S1000x128_1_0_0_1_n_n.rhsIdx_val_of_single rfl _ _).trans hk
      | ⟨1, _⟩ => exact rhs_col _ _)
  rw [el, er]

/-! ## One group's store -/

/-- What the body stores for one group, at row `p` and column `q`. -/
theorem store_apply (w : Vec Ideal S128x128 .f32) (nfb : Vec Ideal S1000x128 .f32) (b : FVec Ideal S1x128 .f32)
    (x : Vec Ideal S1x1000x128 .f32) (p : Fin 1000) (q : Fin 128) :
    k0_pay1 w nfb b x (ix3 (0 : Fin 1) p q)
      = max (Ideal.ofBits .f32 0x3F000000#32
            * ((∑ k : Fin 128, x (ix3 (0 : Fin 1) p k) * w (ix2 k q) + b (ix2 (0 : Fin 1) q)) + nfb (ix2 p q)))
          (Ideal.ofBits .f32 0x00000000#32) := by
  unfold k0_pay1
  refine (rows_as_block_apply _ _ p q).trans ?_
  show max (_ * ((matmul _ none _ w _ (ix2 p q) + broadcastTo S1000x128 b _ (ix2 p q)) + nfb (ix2 p q))) _ = _
  rw [project_apply, bias_rows_apply]
  simp only [block_as_rows_apply]
  rfl

/-- The four stores are one function: the two that take the bias row already cast, -/
theorem pay2_eq (w : Vec Ideal S128x128 .f32) (nfb : Vec Ideal S1000x128 .f32) (b : FVec Ideal S1x128 .f32)
    (x : Vec Ideal S1x1000x128 .f32) : k0_pay2 w nfb b x = k0_pay1 w nfb b x := rfl

/-- and the two that cast it themselves (a cast of `[1, 128]` to `[1, 128]`, the identity). -/
theorem pay4_eq (w : Vec Ideal S128x128 .f32) (nfb : Vec Ideal S1000x128 .f32) (b : Vec Ideal S1x128 .f32)
    (x : Vec Ideal S1x1000x128 .f32) : k0_pay4 w nfb b x = k0_pay1 w nfb b x := by
  have e : k0_pay3 b = b := shapeCast_self b _
  show k0_pay1 w nfb (k0_pay3 b) x = _
  rw [e]

theorem pay5_eq (w : Vec Ideal S128x128 .f32) (nfb : Vec Ideal S1000x128 .f32) (b : Vec Ideal S1x128 .f32)
    (x : Vec Ideal S1x1000x128 .f32) : k0_pay5 w nfb b x = k0_pay1 w nfb b x := by
  have e : k0_pay3 b = b := shapeCast_self b _
  show k0_pay1 w nfb (k0_pay3 b) x = _
  rw [e]

end Cert.Aggregate

end
-- ==== Proof.Block.lean ====
/-
  What one grid point writes back.

  Point `t` of the 100-point grid holds nodes `1000 t … 1000 t + 999`: its node-feature block is rows
  `1000 t …` of `nf`, its message block is those rows of all four groups, the projection and the bias row are whole at
  every point, and its output block is those rows of all four groups of the `[4, 100000, 128]` output. The body
  writes the output block by four stores, one group each, through four `[1, 1000, 128]` rectangles that tile the
  `[4, 1000, 128]` buffer. Each store is the one function of the payload module of its own group's messages, so the
  buffer after the body is ONE function of the block index `(g, p, q)`:

      max (1/2 · ((∑ₖ msgBlock[g, p, k] · w[k, q] + bias[0, q]) + nfBlock[p, q])) 0.

  Reading each input block where the output block's rectangle says — an input block's coordinate on an axis is the
  window's block index there times the block's extent plus the coordinate inside the block, and the windows' block
  indices are tied to the output's (decided once over the 100 points) — this is the output block's part of the
  grouped array `rowsOf` below, the specification with the bias given as a `[1, 128]` row.
-/
import proofs.«149863_g28913719837267_retrytranche2_651_2_alg».proof.Proof.Gen.KernelIdeal.Frame
import proofs.«149863_g28913719837267_retrytranche2_651_2_alg».proof.Proof.Payload
import Idealize.ShloMosaic.Lib.Pipeline.Value

noncomputable section

namespace Cert.Aggregate

open Cert.KernelIdeal Cert.KernelIdeal.Gen Idealize.ShloMosaic Idealize.ShloMosaic.TcCoe Idealize.SL.Sem
open Idealize.ShloMosaic.ValueIdx
open Idealize.ShloMosaic.Pipeline (Dat)

/-! ## The buffer after the body: one function of the block index -/

/-- The `[4, 1000, 128]` output buffer after the body, from the four input blocks. -/
def blockOf (x0 : Vec Ideal S1000x128 .f32) (x1 : Vec Ideal S4x1000x128 .f32) (x2 : Vec Ideal S128x128 .f32)
    (x3 : Vec Ideal S1x128 .f32) : Vec Ideal S4x1000x128 .f32 :=
  fun y => max (Ideal.ofBits .f32 0x3F000000#32
        * ((∑ k : Fin 128, x1 (ix3 (y 0) (y 1) k) * x2 (ix2 k (y 2)) + x3 (ix2 (0 : Fin 1) (y 2))) + x0 (ix2 (y 1) (y 2))))
      (Ideal.ofBits .f32 0x00000000#32)

theorem zero_offsets : (![0, 0] : Fin 2 → Nat) = fun _ => 0 := funext fun a => by fin_cases a <;> rfl

/-- The store of group `g`, through the rectangle at offset `(g, 0, 0)`, is `blockOf` on that rectangle. -/
theorem piece_apply (x0 : Vec Ideal S1000x128 .f32) (x1 : Vec Ideal S4x1000x128 .f32) (x2 : Vec Ideal S128x128 .f32)
    (x3 : Vec Ideal S1x128 .f32) (g : Nat) (hg : g < 4)
    (inb : ∀ a, (![g, 0, 0] : Fin 3 → Nat) a + S1x1000x128.size a ≤ S4x1000x128.size a) (x : S1x1000x128.Idx) :
    k0_pay1 x2 x0 x3 (View.ld x1 (Rect.unit (s := S4x1000x128) ![g, 0, 0] S1x1000x128.size inb)) x
      = blockOf x0 x1 x2 x3 ((Rect.unit (s := S4x1000x128) ![g, 0, 0] S1x1000x128.size inb).idx x) := by
  obtain ⟨z, p, q, rfl⟩ : ∃ (z : Fin 1) (p : Fin 1000) (q : Fin 128), x = ix3 z p q := ⟨x 0, x 1, x 2, eq_ix3 x⟩
  obtain rfl : z = 0 := Subsingleton.elim _ _
  have hidx : ∀ c : Fin 128, (Rect.unit (s := S4x1000x128) ![g, 0, 0] S1x1000x128.size inb).idx (ix3 (0 : Fin 1) p c)
      = ix3 (⟨g, hg⟩ : Fin 4) p c := fun c => funext fun a => Fin.ext (by
    match a with
    | ⟨0, _⟩ => show g + 1 * 0 = g; omega
    | ⟨1, _⟩ => show 0 + 1 * p.val = p.val; omega
    | ⟨2, _⟩ => show 0 + 1 * c.val = c.val; omega)
  rw [store_apply, hidx q]
  simp only [View.ld, hidx]
  rfl

/-- The buffer after the body is `blockOf` of the input blocks: the four stores tile it and each is `blockOf` on
    its rectangle. -/
theorem out_eq (x0 : Vec Ideal S1000x128 .f32) (x1 : Vec Ideal S4x1000x128 .f32) (x2 : Vec Ideal S128x128 .f32)
    (x3 : Vec Ideal S1x128 .f32) : out0_4 x0 x1 x2 x3 = blockOf x0 x1 x2 x3 := by
  funext y
  unfold out0_4
  rw [pay2_eq, pay5_eq, pay4_eq]
  simp only [View.ld_unit_zero (S := S128x128) zero_offsets, View.ld_unit_zero (S := S1000x128) zero_offsets,
    View.ld_unit_zero (S := S1x128) zero_offsets]
  have e : k0_pay3 x3 = x3 := shapeCast_self x3 _
  rw [e]
  refine View.canon_apply_of_pieces (blockOf x0 x1 x2 x3) _ ?_ y (cover0_4 _ _ _ _ y)
  intro pc hpc x
  simp only [List.mem_cons, List.mem_nil_iff, or_false] at hpc
  rcases hpc with rfl | rfl | rfl | rfl
  · exact piece_apply x0 x1 x2 x3 3 (by omega) _ x
  · exact piece_apply x0 x1 x2 x3 2 (by omega) _ x
  · exact piece_apply x0 x1 x2 x3 1 (by omega) _ x
  · exact piece_apply x0 x1 x2 x3 0 (by omega) _ x

/-! ## The grouped array, with the bias as a row -/

/-- The `[4, 100000, 128]` array of the specification, the bias given as the `[1, 128]` row the region is handed. -/
def rowsOf (nf : Vec Ideal S100000x128 .f32) (msg : Vec Ideal S4x100000x128 .f32) (w : Vec Ideal S128x128 .f32)
    (brow : Vec Ideal S1x128 .f32) : Vec Ideal S4x100000x128 .f32 :=
  fun i => max (Ideal.ofBits .f32 0x3F000000#32
        * ((∑ k : Fin 128, msg (ix3 (i 0) (i 1) k) * w (ix2 k (i 2)) + brow (ix2 (0 : Fin 1) (i 2))) + nf (ix2 (i 1) (i 2))))
      (Ideal.ofBits .f32 0x00000000#32)

/-! ## The windows' block indices, decided over the grid -/

/-- At point `t` the output block is block `(0, t, 0)`; the node features move with it along the rows, the messages
    along the rows of every group; the projection and the bias row stay at block `(0, 0)`. -/
theorem block_indices : ∀ t : Fin cfg0.N,
    win0_0.index t (0 : Fin 2) = win0_4.index t (1 : Fin 3) ∧ win0_0.index t (1 : Fin 2) = 0
    ∧ win0_1.index t (0 : Fin 3) = 0 ∧ win0_1.index t (1 : Fin 3) = win0_4.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

variable (m : (ℓ : Loc nD τ sig) → Buf (Elt Ideal) ℓ)

/-- WHAT POINT `t` WRITES BACK is block `t` of `rowsOf` of the arrays as the region finds them. -/
theorem flushed_eq (c : Dev nD) (t : Fin cfg0.N) :
    (dats m 0 c).flushed 4 t
      = ((cfg0.win 4).blk t).view.read (Elt Ideal)
          (rowsOf (V m c main_arg0) (V m c main_arg1) (V m c main_arg2) (V m c main_v0)) := by
  show (cfg0.win 4).cut (grid0.coords t) ((dats m 0 c).after 4 t) = _
  rw [after0_4, out_eq]
  obtain ⟨e00, e01, e10, e11, e12, e20, e21, e30, e31, e40, e41, e42⟩ := block_indices t
  funext y
  have hy0 : (y 0).val < 4 := (y 0).isLt
  have hy1 : (y 1).val < 1000 := (y 1).isLt
  have hy2 : (y 2).val < 128 := (y 2).isLt
  -- the four input blocks, read where the output block's rectangle says
  have h1 : ∀ k : Fin 128, iblk m c 1 t (ix3 (y 0) (y 1) k)
      = V m c main_arg1 (ix3 ((((cfg0.win 4).blk t).view.emb y) 0) ((((cfg0.win 4).blk t).view.emb y) 1) k) := fun k => by
    show V m c main_arg1 (((cfg0.win 1).blk t).view.emb (ix3 (y 0) (y 1) k)) = _
    refine congrArg (V m c main_arg1) (funext fun a => Fin.ext ?_)
    match a with
    | ⟨0, _⟩ => show win0_1.index t (0 : Fin 3) * 4 + 1 * (y 0).val = win0_4.index t (0 : Fin 3) * 4 + 1 * (y 0).val; omega
    | ⟨1, _⟩ => show win0_1.index t (1 : Fin 3) * 1000 + 1 * (y 1).val = win0_4.index t (1 : Fin 3) * 1000 + 1 * (y 1).val; omega
    | ⟨2, _⟩ => show win0_1.index t (2 : Fin 3) * 128 + 1 * k.val = k.val; omega
  have h2 : ∀ k : Fin 128, iblk m c 2 t (ix2 k (y 2))
      = V m c main_arg2 (ix2 k ((((cfg0.win 4).blk t).view.emb y) 2)) := fun k => by
    show V m c main_arg2 (((cfg0.win 2).blk t).view.emb (ix2 k (y 2))) = _
    refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 128 + 1 * (y 2).val = win0_4.index t (2 : Fin 3) * 128 + 1 * (y 2).val; omega
  have h3 : iblk m c 3 t (ix2 (0 : Fin 1) (y 2))
      = V m c main_v0 (ix2 (0 : Fin 1) ((((cfg0.win 4).blk t).view.emb y) 2)) := by
    show V m c main_v0 (((cfg0.win 3).blk t).view.emb (ix2 (0 : Fin 1) (y 2))) = _
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 128 + 1 * (y 2).val = win0_4.index t (2 : Fin 3) * 128 + 1 * (y 2).val; omega
  have h0 : iblk m c 0 t (ix2 (y 1) (y 2))
      = V m c main_arg0 (ix2 ((((cfg0.win 4).blk t).view.emb y) 1) ((((cfg0.win 4).blk t).view.emb y) 2)) := by
    show V m c main_arg0 (((cfg0.win 0).blk t).view.emb (ix2 (y 1) (y 2))) = _
    refine congrArg (V m c main_arg0) (funext fun a => Fin.ext ?_)
    match a with
    | ⟨0, _⟩ => show win0_0.index t (0 : Fin 2) * 1000 + 1 * (y 1).val = win0_4.index t (1 : Fin 3) * 1000 + 1 * (y 1).val; omega
    | ⟨1, _⟩ => show win0_0.index t (1 : Fin 2) * 128 + 1 * (y 2).val = win0_4.index t (2 : Fin 3) * 128 + 1 * (y 2).val; omega
  show blockOf (iblk m c 0 t) (iblk m c 1 t) (iblk m c 2 t) (iblk m c 3 t) y
    = rowsOf (V m c main_arg0) (V m c main_arg1) (V m c main_arg2) (V m c main_v0) (((cfg0.win 4).blk t).view.emb y)
  unfold blockOf rowsOf
  simp only [h0, h1, h2, h3]

end Cert.Aggregate

end
-- ==== Proof.Array.lean ====
/-
  The output array after the run.

  The output's blocks are `[4, 1000, 128]` slabs of the `[4, 100000, 128]` array, slab `t` holding rows
  `1000 t … 1000 t + 999` of every group. Row `n` lies in slab `n / 1000`, so the hundred slabs cover the array, and
  every point writes its slab back. Each slab written is that slab of the one array `rowsOf`, so the array ends
  holding `rowsOf` of the arrays the region was handed.
-/
import proofs.«149863_g28913719837267_retrytranche2_651_2_alg».proof.Proof.Block

noncomputable section

namespace Cert.Aggregate

open Cert.KernelIdeal Cert.KernelIdeal.Gen Idealize.ShloMosaic Idealize.ShloMosaic.TcCoe Idealize.SL.Sem
open Idealize.ShloMosaic.ValueIdx
open Idealize.ShloMosaic.Pipeline (Dat)

/-- An index of the output array is in point `t`'s block iff each coordinate is in the block's range on its axis. -/
theorem mem_block (t : Fin cfg0.N) (i : S4x100000x128.Idx) :
    i ∈ ((cfg0.win 4).blk t).view.set ↔ ∀ a : Fin 3, win0_4.index t a * S4x1000x128.size a ≤ (i a).val
      ∧ (i a).val < win0_4.index t a * S4x1000x128.size a + S4x1000x128.size a := by
  show i ∈ ((View.whole main_v1).slice (win0_4.rect t)).set ↔ _
  rw [View.set_slice_whole, Rect.mem_set_unit]
  exact Iff.rfl

/-- Every index of the output array is in the block of the point its row names, and that point writes back. -/
theorem covered (i : S4x100000x128.Idx) :
    ∃ t : Fin cfg0.N, (cfg0.win 4).flush t = true ∧ i ∈ ((cfg0.win 4).blk t).view.set := by
  have h0 : (i 0).val < 4 := (i 0).isLt
  have h1 : (i 1).val < 100000 := (i 1).isLt
  have h2 : (i 2).val < 128 := (i 2).isLt
  have hN : cfg0.N = 100 := N_0
  have ht : (i 1).val / 1000 < cfg0.N := by rw [hN]; omega
  obtain ⟨-, -, -, -, -, -, -, -, -, e40, e41, e42⟩ := block_indices ⟨(i 1).val / 1000, ht⟩
  have e41' : win0_4.index ⟨(i 1).val / 1000, ht⟩ (1 : Fin 3) = (i 1).val / 1000 := e41
  refine ⟨⟨(i 1).val / 1000, ht⟩, flush0_4 _, ?_⟩
  rw [mem_block]
  intro a
  match a with
  | ⟨0, _⟩ =>
    show win0_4.index ⟨(i 1).val / 1000, ht⟩ (0 : Fin 3) * 4 ≤ (i 0).val
      ∧ (i 0).val < win0_4.index ⟨(i 1).val / 1000, ht⟩ (0 : Fin 3) * 4 + 4
    omega
  | ⟨1, _⟩ =>
    show win0_4.index ⟨(i 1).val / 1000, ht⟩ (1 : Fin 3) * 1000 ≤ (i 1).val
      ∧ (i 1).val < win0_4.index ⟨(i 1).val / 1000, ht⟩ (1 : Fin 3) * 1000 + 1000
    omega
  | ⟨2, _⟩ =>
    show win0_4.index ⟨(i 1).val / 1000, ht⟩ (2 : Fin 3) * 128 ≤ (i 2).val
      ∧ (i 2).val < win0_4.index ⟨(i 1).val / 1000, ht⟩ (2 : Fin 3) * 128 + 128
    omega

variable (m : (ℓ : Loc nD τ sig) → Buf (Elt Ideal) ℓ)

/-- THE OUTPUT ARRAY after the run: `rowsOf` of the arrays as the region finds them. -/
theorem final (c : Dev nD) :
    (dats m 0 c).arrAt 4 cfg0.N = rowsOf (V m c main_arg0) (V m c main_arg1) (V m c main_arg2) (V m c main_v0) :=
  (dats m 0 c).arrAt_eq_of_cover 4 _ (fun t _ => flushed_eq m c t) covered

end Cert.Aggregate

end
-- ==== Proof.Spec.lean ====
/-
  The value both programs compute, as one function of the four argument arrays.

  With `nf : [100000, 128]` the node features, `msg : [4, 100000, 128]` the grouped messages, `w : [128, 128]` the
  projection and `b : [128]` the bias, the entry of group `g`, node `n`, feature `j` is

      max (1/2 · ((∑ₖ msg[g, n, k] · w[k, j] + b[j]) + nf[n, j])) 0

  on the extended reals: the projected message plus the bias, averaged with the node's own feature, then
  rectified. The two additions are grouped as both programs group them, so no law of the extended reals beyond
  the definitions is needed to compare the programs with this function; the constant `1/2` and the zero are kept
  as the words both programs write. The result array stacks the four groups along the rows: row `r` of the
  `[400000, 128]` result is node `r % 100000` of group `r / 100000`.
-/
import Idealize.ShloMosaic.PureOps.Ideal.Laws
import Idealize.ShloMosaic.Lib.ValueIdx

noncomputable section

namespace Cert.Aggregate

open Idealize.ShloMosaic Idealize.ShloMosaic.ValueIdx

/-- The aggregated, rectified entry of group `g`, node `n`, feature `j`. -/
def entry (nf : FVec Ideal ⟨2, ![100000, 128]⟩ .f32) (msg : FVec Ideal ⟨3, ![4, 100000, 128]⟩ .f32)
    (w : FVec Ideal ⟨2, ![128, 128]⟩ .f32) (b : FVec Ideal ⟨1, ![128]⟩ .f32)
    (g : Fin 4) (n : Fin 100000) (j : Fin 128) : EReal :=
  max (Ideal.ofBits .f32 0x3F000000#32
        * ((∑ k : Fin 128, msg (ix3 g n k) * w (ix2 k j) + b (ix1 j)) + nf (ix2 n j)))
    (Ideal.ofBits .f32 0x00000000#32)

/-- The entries arranged by group: the `[4, 100000, 128]` array. -/
def grouped (nf : FVec Ideal ⟨2, ![100000, 128]⟩ .f32) (msg : FVec Ideal ⟨3, ![4, 100000, 128]⟩ .f32)
    (w : FVec Ideal ⟨2, ![128, 128]⟩ .f32) (b : FVec Ideal ⟨1, ![128]⟩ .f32) :
    FVec Ideal ⟨3, ![4, 100000, 128]⟩ .f32 :=
  fun i => entry nf msg w b (i 0) (i 1) (i 2)

/-- The groups stacked along the rows: the `[400000, 128]` array, row `r` being node `r % 100000` of group
    `r / 100000`. -/
def stacked (nf : FVec Ideal ⟨2, ![100000, 128]⟩ .f32) (msg : FVec Ideal ⟨3, ![4, 100000, 128]⟩ .f32)
    (w : FVec Ideal ⟨2, ![128, 128]⟩ .f32) (b : FVec Ideal ⟨1, ![128]⟩ .f32) :
    FVec Ideal ⟨2, ![400000, 128]⟩ .f32 :=
  fun i => entry nf msg w b ⟨(i 0).val / 100000, by have := idx2_lt0 i; omega⟩
    ⟨(i 0).val % 100000, Nat.mod_lt _ (by norm_num)⟩ (i 1)

end Cert.Aggregate

end
-- ==== Proof.Stack.lean ====
/-
  Four groups stacked along the rows, read at a row.

  Both programs finish by laying the four `[100000, 128]` groups one under another into a `[400000, 128]` array:
  the kernel by reshaping its `[4, 100000, 128]` output (row-major, so position `((g · 100000 + n) · 128 + j)`
  is kept), the reference by concatenating its four per-group results along the rows. Either way row
  `r = g · 100000 + n` of the result is row `n` of group `g`. Stated over any element type and any four pieces.
-/
import Idealize.ShloMosaic.Lib.Pipeline.Value
import Idealize.ShloMosaic.Lib.ValueIdx

noncomputable section

namespace Cert.Aggregate

open Idealize.ShloMosaic Idealize.ShloMosaic.ValueIdx

variable {α : Type}

/-- The reshape `[4, 100000, 128] → [400000, 128]` at row `g · 100000 + n`: entry `(g, n, ·)`. -/
theorem flatten_apply (X : (⟨3, ![4, 100000, 128]⟩ : Shape).Idx → α)
    (h : (⟨3, ![4, 100000, 128]⟩ : Shape).ShapeCasts ⟨2, ![400000, 128]⟩) (i : (⟨2, ![400000, 128]⟩ : Shape).Idx)
    (g : Fin 4) (n : Fin 100000) (hi : (i 0).val = g.val * 100000 + n.val) :
    shapeCast ⟨2, ![400000, 128]⟩ X h i = X (ix3 g n (i 1)) :=
  shapeCast_apply X h i (ix3 g n (i 1)) (by
    rw [Shape.rowMajor_val_three, Shape.rowMajor_val_two]
    show (g.val * 100000 + n.val) * 128 + (i 1).val = (i 0).val * 128 + (i 1).val
    rw [hi])

/-- The concatenation of four `[100000, 128]` pieces along the rows at row `g · 100000 + n`: row `n` of piece `g`. -/
theorem concat_apply (u : Fin 4 → ((⟨2, ![100000, 128]⟩ : Shape).Idx → α))
    (h : Shape.Concatenates (([⟨⟨2, ![100000, 128]⟩, u 0⟩, ⟨⟨2, ![100000, 128]⟩, u 1⟩, ⟨⟨2, ![100000, 128]⟩, u 2⟩,
      ⟨⟨2, ![100000, 128]⟩, u 3⟩] : List ((s : Shape) × (s.Idx → α))).map (·.1)) ⟨2, ![400000, 128]⟩ 0)
    (i : (⟨2, ![400000, 128]⟩ : Shape).Idx) (g : Fin 4) (n : Fin 100000) (hi : (i 0).val = g.val * 100000 + n.val) :
    concatenate ⟨2, ![400000, 128]⟩ 0 [⟨⟨2, ![100000, 128]⟩, u 0⟩, ⟨⟨2, ![100000, 128]⟩, u 1⟩,
      ⟨⟨2, ![100000, 128]⟩, u 2⟩, ⟨⟨2, ![100000, 128]⟩, u 3⟩] h i = u g (ix2 n (i 1)) := by
  have hcol : ∀ b : Fin (⟨2, ![100000, 128]⟩ : Shape).rank, b.cast rfl ≠ (0 : Fin (⟨2, ![400000, 128]⟩ : Shape).rank) →
      ((ix2 n (i 1)) b).val = (i (b.cast rfl)).val := fun b hb => by
    match b with
    | ⟨0, _⟩ => exact absurd rfl hb
    | ⟨1, _⟩ => rfl
  have hn : n.val < 100000 := n.isLt
  exact concatenate_ofFn_apply (t := ⟨2, ![400000, 128]⟩) (s₁ := ⟨2, ![100000, 128]⟩) 0 u h rfl 100000 rfl i g
    (by show (i 0).val / 100000 = g.val; omega) (ix2 n (i 1)) (by show n.val = (i 0).val % 100000; omega) hcol

/-- The bias `[128]` given a leading unit axis: entry `(0, j)` of the row is entry `j`. -/
theorem bias_as_row_apply (b : (⟨1, ![128]⟩ : Shape).Idx → α)
    (h : (⟨1, ![128]⟩ : Shape).ShapeCasts ⟨2, ![1, 128]⟩) (j : Fin 128) :
    shapeCast ⟨2, ![1, 128]⟩ b h (ix2 (0 : Fin 1) j) = b (ix1 j) :=
  shapeCast_apply b h _ (ix1 j) (by
    rw [Shape.rowMajor_val_one, Shape.rowMajor_val_two]
    show j.val = (0 : Nat) * 128 + j.val
    omega)

end Cert.Aggregate

end
-- ==== Proof.KernelRun.lean ====
/-
  The kernel's run, read as a value.

  Around the region the program does two things on the host: before it, the bias `[128]` is given a leading unit
  axis (the `[1, 128]` row the region is handed); after it, the `[4, 100000, 128]` output is reshaped to the
  `[400000, 128]` result. The other three arguments reach the region as launched. So the result is the reshape of
  `rowsOf` of the arguments and the bias row, and, row by row, that is the specification's stacked array: row
  `r` is node `r % 100000` of group `r / 100000`, and entry `(0, j)` of the bias row is entry `j` of the bias.
-/
import proofs.«149863_g28913719837267_retrytranche2_651_2_alg».proof.Proof.Array
import proofs.«149863_g28913719837267_retrytranche2_651_2_alg».proof.Proof.Spec
import proofs.«149863_g28913719837267_retrytranche2_651_2_alg».proof.Proof.Stack
import Idealize.ShloMosaic.Lib.StableHlo.Run

noncomputable section

namespace Cert.Aggregate

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The bias row the region is handed: the bias with a leading unit axis. -/
theorem bias_row (c : Dev nD) :
    (V m c main_v0 : S1x128.Idx → EReal)
      = shapeCast S1x128 (m ((c : Thread nD τ).loc main_arg3)) shapeCasts_S128_S1x128 := by
  show StableHlo.after hostOps0 (fun b => m (c, b)) (Proc.devRef .tc main_v0) = _
  after_results
  rfl

/-- The result buffer after the lines that follow the region: the output array, reshaped. -/
theorem result_eq (c : Dev nD) :
    (Pipeline.afterTail₀ cfgs (dats m) 0 (V0 m) [hostOps1] c main_v2 : S400000x128.Idx → EReal)
      = shapeCast S400000x128 ((dats m 0 c).arrAt 4 cfg0.N) shapeCasts_S4x100000x128_S400000x128 := by
  unfold Pipeline.afterTail₀
  show StableHlo.after hostOps1 _ (Proc.devRef .tc main_v2) = _
  after_results
  exact congrArg (fun X => shapeCast S400000x128 X shapeCasts_S4x100000x128_S400000x128)
    (Pipeline.withArrays_arr spec0 launch0.win.arr_inj c _ _ 4)

/-- The grouped array with the bias as a row, reshaped, is the stacked array: row `r` reads group `r / 100000`, node
    `r % 100000`, and entry `(0, j)` of the bias row is entry `j` of the bias. -/
theorem stacked_of_rows (nf : FVec Ideal S100000x128 .f32) (msg : FVec Ideal S4x100000x128 .f32)
    (w : FVec Ideal S128x128 .f32) (b : FVec Ideal S128 .f32) (h1 : S128.ShapeCasts S1x128)
    (h2 : S4x100000x128.ShapeCasts S400000x128) :
    shapeCast S400000x128 (rowsOf nf msg w (shapeCast S1x128 b h1)) h2 = stacked nf msg w b := by
  refine funext fun (i : S400000x128.Idx) => ?_
  obtain ⟨r, j, rfl⟩ : ∃ (r : Fin 400000) (j : Fin 128), i = ix2 r j := ⟨i 0, i 1, eq_ix2 i⟩
  have hr : r.val < 400000 := r.isLt
  rw [flatten_apply _ _ (ix2 r j) ⟨r.val / 100000, by omega⟩ ⟨r.val % 100000, Nat.mod_lt _ (by norm_num)⟩
    (by show r.val = r.val / 100000 * 100000 + r.val % 100000; omega)]
  show max (_ * ((_ + shapeCast S1x128 b h1 (ix2 (0 : Fin 1) j)) + _)) _ = _
  rw [bias_as_row_apply]
  rfl

/-- The result is the specification's stacked array of the arguments as launched. -/
theorem value (c : Dev nD) :
    (Pipeline.afterTail₀ cfgs (dats m) 0 (V0 m) [hostOps1] c main_v2 : S400000x128.Idx → EReal)
      = stacked (m ((c : Thread nD τ).loc main_arg0)) (m ((c : Thread nD τ).loc main_arg1))
          (m ((c : Thread nD τ).loc main_arg2)) (m ((c : Thread nD τ).loc main_arg3)) := by
  rw [result_eq, final, V_main_arg0, V_main_arg1, V_main_arg2, bias_row]
  exact stacked_of_rows _ _ _ _ _ _

/-- The kernel's run: every weakly fair execution terminates with the result at the stacked array of the arguments
    and the arguments unchanged. -/
theorem run : θ_run defs (onTc (τ := τ) (main (F := Ideal))) ⟨m, fun _ => 0, ρ⟩ fun r => ∀ c : Dev nD,
      r.2.mem ((c.tc : Thread nD τ).loc main_v2)
        = stacked (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Aggregate

end
-- ==== Proof.RefValue.lean ====
/-
  The reference's result is the specification's stacked array.

  The reference computes each group on its own — the group's `[100000, 128]` messages sliced out of the grouped
  array, multiplied by the projection, the bias broadcast down the rows and added, the node features added, the sum
  halved — concatenates the four results along the rows, and rectifies. Read at node `n`, feature `j`, group `g`'s
  result is `1/2 · ((∑ₖ msg[g, n, k] · w[k, j] + b[j]) + nf[n, j])`: the slice and the reshape only rename the index,
  the host's contraction is the plain sum of products. Row `r` of the concatenation is row `r % 100000` of group
  `r / 100000`, and the rectifier is the `max` with zero of the specification.
-/
import proofs.«149863_g28913719837267_retrytranche2_651_2_alg».proof.Proof.Gen.ReferenceIdeal.Read
import proofs.«149863_g28913719837267_retrytranche2_651_2_alg».proof.Proof.Spec
import proofs.«149863_g28913719837267_retrytranche2_651_2_alg».proof.Proof.Stack

noncomputable section

namespace Cert.Aggregate.Reference

open Cert.ReferenceIdeal Cert.ReferenceIdeal.Gen Idealize.ShloMosaic Idealize.ShloMosaic.ValueIdx
open Cert.Aggregate

/-- Group 0 of the reference, before the rectifier, at node `n` and feature `j`. -/
theorem group0_apply (x0 : FVec Ideal S100000x128 .f32) (x1 : FVec Ideal S4x100000x128 .f32) (x2 : FVec Ideal S128x128 .f32)
    (x3 : FVec Ideal S128 .f32) (n : Fin 100000) (j : Fin 128) :
    Read.val_main_v8 (F := Ideal) x0 x1 x2 x3 (ix2 n j)
      = Ideal.ofBits .f32 0x3F000000#32
          * ((∑ k : Fin 128, x1 (ix3 (0 : Fin 4) n k) * x2 (ix2 k j) + x3 (ix1 j)) + x0 (ix2 n j)) := by
  have hn : n.val < 100000 := n.isLt
  have e1 : ∀ k : Fin 128, Read.idx_main_v0 (Read.idx_main_v1 (Read.lidx_main_v2 (ix2 n j) k)) = ix3 (0 : Fin 4) n k :=
    fun k => funext fun a => Fin.ext (by
      have hk : k.val < 128 := k.isLt
      match a with
      | ⟨0, _⟩ => rfl
      | ⟨1, _⟩ => show (n.val * 128 + k.val) / 128 % 100000 = n.val; omega
      | ⟨2, _⟩ => show (n.val * 128 + k.val) % 128 = k.val; omega)
  have e2 : ∀ k : Fin 128, Read.ridx_main_v2 (ix2 n j) k = ix2 k j :=
    fun k => funext fun a => Fin.ext (by match a with | ⟨0, _⟩ => rfl | ⟨1, _⟩ => rfl)
  have e3 : Read.idx_main_v3 (Read.idx_main_v4 (ix2 n j)) = ix1 j :=
    funext fun a => Fin.ext (by match a with | ⟨0, _⟩ => rfl)
  rw [Read.val_main_v8_apply, Read.val_main_v7_apply, Read.val_main_cst_apply, Read.val_main_v6_apply, Read.val_main_v5_apply,
    Read.val_main_v2_apply, Read.val_main_v4_apply, Read.val_main_v3_apply]
  simp only [Read.val_main_v1_apply, Read.val_main_v0_apply, e1, e2, e3]
  rfl

/-- Group 1 of the reference, before the rectifier, at node `n` and feature `j`. -/
theorem group1_apply (x0 : FVec Ideal S100000x128 .f32) (x1 : FVec Ideal S4x100000x128 .f32) (x2 : FVec Ideal S128x128 .f32)
    (x3 : FVec Ideal S128 .f32) (n : Fin 100000) (j : Fin 128) :
    Read.val_main_v17 (F := Ideal) x0 x1 x2 x3 (ix2 n j)
      = Ideal.ofBits .f32 0x3F000000#32
          * ((∑ k : Fin 128, x1 (ix3 (1 : Fin 4) n k) * x2 (ix2 k j) + x3 (ix1 j)) + x0 (ix2 n j)) := by
  have hn : n.val < 100000 := n.isLt
  have e1 : ∀ k : Fin 128, Read.idx_main_v9 (Read.idx_main_v10 (Read.lidx_main_v11 (ix2 n j) k)) = ix3 (1 : Fin 4) n k :=
    fun k => funext fun a => Fin.ext (by
      have hk : k.val < 128 := k.isLt
      match a with
      | ⟨0, _⟩ => rfl
      | ⟨1, _⟩ => show (n.val * 128 + k.val) / 128 % 100000 = n.val; omega
      | ⟨2, _⟩ => show (n.val * 128 + k.val) % 128 = k.val; omega)
  have e2 : ∀ k : Fin 128, Read.ridx_main_v11 (ix2 n j) k = ix2 k j :=
    fun k => funext fun a => Fin.ext (by match a with | ⟨0, _⟩ => rfl | ⟨1, _⟩ => rfl)
  have e3 : Read.idx_main_v12 (Read.idx_main_v13 (ix2 n j)) = ix1 j :=
    funext fun a => Fin.ext (by match a with | ⟨0, _⟩ => rfl)
  rw [Read.val_main_v17_apply, Read.val_main_v16_apply, Read.val_main_cst_0_apply, Read.val_main_v15_apply, Read.val_main_v14_apply,
    Read.val_main_v11_apply, Read.val_main_v13_apply, Read.val_main_v12_apply]
  simp only [Read.val_main_v10_apply, Read.val_main_v9_apply, e1, e2, e3]
  rfl

/-- Group 2 of the reference, before the rectifier, at node `n` and feature `j`. -/
theorem group2_apply (x0 : FVec Ideal S100000x128 .f32) (x1 : FVec Ideal S4x100000x128 .f32) (x2 : FVec Ideal S128x128 .f32)
    (x3 : FVec Ideal S128 .f32) (n : Fin 100000) (j : Fin 128) :
    Read.val_main_v26 (F := Ideal) x0 x1 x2 x3 (ix2 n j)
      = Ideal.ofBits .f32 0x3F000000#32
          * ((∑ k : Fin 128, x1 (ix3 (2 : Fin 4) n k) * x2 (ix2 k j) + x3 (ix1 j)) + x0 (ix2 n j)) := by
  have hn : n.val < 100000 := n.isLt
  have e1 : ∀ k : Fin 128, Read.idx_main_v18 (Read.idx_main_v19 (Read.lidx_main_v20 (ix2 n j) k)) = ix3 (2 : Fin 4) n k :=
    fun k => funext fun a => Fin.ext (by
      have hk : k.val < 128 := k.isLt
      match a with
      | ⟨0, _⟩ => rfl
      | ⟨1, _⟩ => show (n.val * 128 + k.val) / 128 % 100000 = n.val; omega
      | ⟨2, _⟩ => show (n.val * 128 + k.val) % 128 = k.val; omega)
  have e2 : ∀ k : Fin 128, Read.ridx_main_v20 (ix2 n j) k = ix2 k j :=
    fun k => funext fun a => Fin.ext (by match a with | ⟨0, _⟩ => rfl | ⟨1, _⟩ => rfl)
  have e3 : Read.idx_main_v21 (Read.idx_main_v22 (ix2 n j)) = ix1 j :=
    funext fun a => Fin.ext (by match a with | ⟨0, _⟩ => rfl)
  rw [Read.val_main_v26_apply, Read.val_main_v25_apply, Read.val_main_cst_1_apply, Read.val_main_v24_apply, Read.val_main_v23_apply,
    Read.val_main_v20_apply, Read.val_main_v22_apply, Read.val_main_v21_apply]
  simp only [Read.val_main_v19_apply, Read.val_main_v18_apply, e1, e2, e3]
  rfl

/-- Group 3 of the reference, before the rectifier, at node `n` and feature `j`. -/
theorem group3_apply (x0 : FVec Ideal S100000x128 .f32) (x1 : FVec Ideal S4x100000x128 .f32) (x2 : FVec Ideal S128x128 .f32)
    (x3 : FVec Ideal S128 .f32) (n : Fin 100000) (j : Fin 128) :
    Read.val_main_v35 (F := Ideal) x0 x1 x2 x3 (ix2 n j)
      = Ideal.ofBits .f32 0x3F000000#32
          * ((∑ k : Fin 128, x1 (ix3 (3 : Fin 4) n k) * x2 (ix2 k j) + x3 (ix1 j)) + x0 (ix2 n j)) := by
  have hn : n.val < 100000 := n.isLt
  have e1 : ∀ k : Fin 128, Read.idx_main_v27 (Read.idx_main_v28 (Read.lidx_main_v29 (ix2 n j) k)) = ix3 (3 : Fin 4) n k :=
    fun k => funext fun a => Fin.ext (by
      have hk : k.val < 128 := k.isLt
      match a with
      | ⟨0, _⟩ => rfl
      | ⟨1, _⟩ => show (n.val * 128 + k.val) / 128 % 100000 = n.val; omega
      | ⟨2, _⟩ => show (n.val * 128 + k.val) % 128 = k.val; omega)
  have e2 : ∀ k : Fin 128, Read.ridx_main_v29 (ix2 n j) k = ix2 k j :=
    fun k => funext fun a => Fin.ext (by match a with | ⟨0, _⟩ => rfl | ⟨1, _⟩ => rfl)
  have e3 : Read.idx_main_v30 (Read.idx_main_v31 (ix2 n j)) = ix1 j :=
    funext fun a => Fin.ext (by match a with | ⟨0, _⟩ => rfl)
  rw [Read.val_main_v35_apply, Read.val_main_v34_apply, Read.val_main_cst_2_apply, Read.val_main_v33_apply, Read.val_main_v32_apply,
    Read.val_main_v29_apply, Read.val_main_v31_apply, Read.val_main_v30_apply]
  simp only [Read.val_main_v28_apply, Read.val_main_v27_apply, e1, e2, e3]
  rfl

/-- The four groups at once: piece `g` of the concatenation at node `n`, feature `j`. -/
theorem groups_apply (x0 : FVec Ideal S100000x128 .f32) (x1 : FVec Ideal S4x100000x128 .f32) (x2 : FVec Ideal S128x128 .f32)
    (x3 : FVec Ideal S128 .f32) (g : Fin 4) (n : Fin 100000) (j : Fin 128) :
    (![Read.val_main_v8 (F := Ideal) x0 x1 x2 x3, Read.val_main_v17 (F := Ideal) x0 x1 x2 x3,
      Read.val_main_v26 (F := Ideal) x0 x1 x2 x3, Read.val_main_v35 (F := Ideal) x0 x1 x2 x3] : Fin 4 → (S100000x128.Idx → EReal)) g (ix2 n j)
      = Ideal.ofBits .f32 0x3F000000#32
          * ((∑ k : Fin 128, x1 (ix3 g n k) * x2 (ix2 k j) + x3 (ix1 j)) + x0 (ix2 n j)) := by
  obtain ⟨gv, hgv⟩ := g
  rcases (by omega : gv = 0 ∨ gv = 1 ∨ gv = 2 ∨ gv = 3) with rfl | rfl | rfl | rfl
  · exact group0_apply x0 x1 x2 x3 n j
  · exact group1_apply x0 x1 x2 x3 n j
  · exact group2_apply x0 x1 x2 x3 n j
  · exact group3_apply x0 x1 x2 x3 n j

/-- THE REFERENCE'S RESULT, as a function of its arguments, is the stacked array. -/
theorem result_eq (x0 : FVec Ideal S100000x128 .f32) (x1 : FVec Ideal S4x100000x128 .f32) (x2 : FVec Ideal S128x128 .f32)
    (x3 : FVec Ideal S128 .f32) : Read.val_main_v37 (F := Ideal) x0 x1 x2 x3 = stacked x0 x1 x2 x3 := by
  refine funext fun (i : S400000x128.Idx) => ?_
  have hlt : (i 0).val < 400000 := idx2_lt0 i
  have hc : Read.val_main_v36 (F := Ideal) x0 x1 x2 x3 i
      = (![Read.val_main_v8 (F := Ideal) x0 x1 x2 x3, Read.val_main_v17 (F := Ideal) x0 x1 x2 x3,
      Read.val_main_v26 (F := Ideal) x0 x1 x2 x3, Read.val_main_v35 (F := Ideal) x0 x1 x2 x3] : Fin 4 → (S100000x128.Idx → EReal))
          ⟨(i 0).val / 100000, by omega⟩ (ix2 ⟨(i 0).val % 100000, Nat.mod_lt _ (by norm_num)⟩ (i 1)) :=
    concat_apply (![Read.val_main_v8 (F := Ideal) x0 x1 x2 x3, Read.val_main_v17 (F := Ideal) x0 x1 x2 x3,
      Read.val_main_v26 (F := Ideal) x0 x1 x2 x3, Read.val_main_v35 (F := Ideal) x0 x1 x2 x3] : Fin 4 → (S100000x128.Idx → EReal))
      _ i ⟨(i 0).val / 100000, by omega⟩ ⟨(i 0).val % 100000, Nat.mod_lt _ (by norm_num)⟩
      (by show (i 0).val = (i 0).val / 100000 * 100000 + (i 0).val % 100000; omega)
  rw [Read.val_main_v37_apply, Read.val_main_call0_v0_apply, Read.val_main_call0_cst_apply, hc]
  exact congrArg (fun z : EReal => max z (Ideal.ofBits .f32 0x00000000#32)) (groups_apply x0 x1 x2 x3 _ _ _)

end Cert.Aggregate.Reference

end
-- ==== Proof.lean ====
/-
  A message aggregator: the kernel and its reference compute the same array on the extended reals.

  Arguments: node features `nf : [100000, 128]`, grouped messages `msg : [4, 100000, 128]`, a projection
  `w : [128, 128]`, a bias `b : [128]`. Result: `[400000, 128]`, whose row `g · 100000 + n`, column `j` is

      max (1/2 · ((∑ₖ msg[g, n, k] · w[k, j] + b[j]) + nf[n, j])) 0        (Proof/Spec.lean, `stacked`).

  The kernel walks the nodes in 100 blocks of 1000. At a block it multiplies each group's messages by the projection
  into a zero accumulator, adds the bias row and the node features, halves and rectifies, and stores the group's
  `[1, 1000, 128]` part of a `[4, 1000, 128]` output block; the `[4, 100000, 128]` output is then reshaped on the
  host. The reference does the same arithmetic one whole group at a time, concatenates the four groups along the rows
  and rectifies the concatenation.

  The two sides group the two additions the same way and write the same constants, so they meet with no algebra beyond
  `0 + s = s` (the kernel's zero accumulator) — in particular nothing needs the inputs to be finite, and the
  precondition is never opened. What is proved is a matter of indices:
    * Proof/Payload.lean — one group's store at an index: the sum of products plus bias plus feature, halved, rectified;
    * Proof/Block.lean — the four stores tile the output block, so the block is one function of its index, and it is
      the block's part of one `[4, 100000, 128]` array of the arguments;
    * Proof/Array.lean — the hundred blocks cover the output, so the output is that array;
    * Proof/Stack.lean — reshaping `[4, 100000, 128]` to `[400000, 128]` and concatenating four `[100000, 128]` pieces
      both put node `n` of group `g` at row `g · 100000 + n`;
    * Proof/KernelRun.lean — the kernel's run ends with the result at `stacked` of the arguments;
    * Proof/RefValue.lean — the reference's result, stage by stage, is `stacked` of the arguments.
  The frames of the two kernel programs and the reference's run are the generated ones; the idealization rewrote
  nothing, so there is nothing to preserve.
-/
import proofs.«149863_g28913719837267_retrytranche2_651_2_alg».proof.Defs
import proofs.«149863_g28913719837267_retrytranche2_651_2_alg».proof.Proof.Gen.Kernel
import proofs.«149863_g28913719837267_retrytranche2_651_2_alg».proof.Proof.Gen.Kernel.Skeleton
import proofs.«149863_g28913719837267_retrytranche2_651_2_alg».proof.Proof.Gen.Kernel.Launch
import proofs.«149863_g28913719837267_retrytranche2_651_2_alg».proof.Proof.Gen.Kernel.Points
import proofs.«149863_g28913719837267_retrytranche2_651_2_alg».proof.Proof.Gen.Kernel.Frame
import proofs.«149863_g28913719837267_retrytranche2_651_2_alg».proof.Proof.Gen.KernelIdeal
import proofs.«149863_g28913719837267_retrytranche2_651_2_alg».proof.Proof.Gen.KernelIdeal.Skeleton
import proofs.«149863_g28913719837267_retrytranche2_651_2_alg».proof.Proof.Gen.KernelIdeal.Launch
import proofs.«149863_g28913719837267_retrytranche2_651_2_alg».proof.Proof.Gen.KernelIdeal.Points
import proofs.«149863_g28913719837267_retrytranche2_651_2_alg».proof.Proof.Gen.KernelIdeal.Frame
import proofs.«149863_g28913719837267_retrytranche2_651_2_alg».proof.Proof.Gen.ReferenceIdeal
import proofs.«149863_g28913719837267_retrytranche2_651_2_alg».proof.Proof.Gen.ReferenceIdeal.Run
import proofs.«149863_g28913719837267_retrytranche2_651_2_alg».proof.Proof.Gen.ReferenceIdeal.Read
import proofs.«149863_g28913719837267_retrytranche2_651_2_alg».proof.Proof.Gen.Pre_finite_inputs
import proofs.«149863_g28913719837267_retrytranche2_651_2_alg».proof.Proof.KernelRun
import proofs.«149863_g28913719837267_retrytranche2_651_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the stacked array of the
    arguments: the kernel by its run read as a value, the reference by its run and its stages read at an index. -/
theorem algebraic : Cert.algebraic_KernelIdeal_ReferenceIdeal := by
  intro m ρ m' ρ' _ hagree
  refine ⟨_, Cert.Aggregate.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v37_eq (F := Ideal) _ _ _ _).trans ?_
  rw [Cert.Aggregate.Reference.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
